-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608x1 : Shape := ⟨2, ![8388608, 1]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x4 .f32) (main_arg1 : FVec F S8388608x1 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  let main_cst_2 : FVec F S_ .f32 := constant S_ .f32 0x00000000#32
  let main_v9 : FVec F S8388608x1 .f32 := broadcastInDim S8388608x1 ![] bcast_S_S8388608x1 main_cst_2
  let main_v10 : IVec S8388608x1 1 := cmpf .ogt main_arg1 main_v9
  let main_c_3 : IVec S_ 1 := constantI S_ 1 1#1
  let main_v11 : IVec S_ 1 := (fun x v => Host.reduce IntOp.andi x v reducesTo_S8388608x1_S_d0_1 h_S_) main_v10 main_c_3
  let main_v12 : IVec S_ 1 := andi main_v8 main_v11
  main_v12
-- ==== Kernel.lean ====
abbrev S8388608x4 : Shape := ⟨2, ![8388608, 4]⟩
abbrev S8388608x1 : Shape := ⟨2, ![8388608, 1]⟩
abbrev S8388608 : Shape := ⟨1, ![8388608]⟩
abbrev S65536x128 : Shape := ⟨2, ![65536, 128]⟩
abbrev S4096x128 : Shape := ⟨2, ![4096, 128]⟩

abbrev nBuf : Space → Nat
  | .hbm => 18
  | .vmem => 12
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x1, .f32⟩
  | .hbm, ⟨3, _⟩ => ⟨S8388608, .f32⟩
  | .hbm, ⟨4, _⟩ => ⟨S65536x128, .f32⟩
  | .hbm, ⟨5, _⟩ => ⟨S8388608x1, .f32⟩
  | .hbm, ⟨6, _⟩ => ⟨S8388608, .f32⟩
  | .hbm, ⟨7, _⟩ => ⟨S65536x128, .f32⟩
  | .hbm, ⟨8, _⟩ => ⟨S8388608x1, .f32⟩
  | .hbm, ⟨9, _⟩ => ⟨S8388608, .f32⟩
  | .hbm, ⟨10, _⟩ => ⟨S65536x128, .f32⟩
  | .hbm, ⟨11, _⟩ => ⟨S8388608x1, .f32⟩
  | .hbm, ⟨12, _⟩ => ⟨S8388608, .f32⟩
  | .hbm, ⟨13, _⟩ => ⟨S65536x128, .f32⟩
  | .hbm, ⟨14, _⟩ => ⟨S8388608, .f32⟩
  | .hbm, ⟨15, _⟩ => ⟨S65536x128, .f32⟩
  | .hbm, ⟨16, _⟩ => ⟨S65536x128, .f32⟩
  | .hbm, ⟨17, _⟩ => ⟨S8388608, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8388608x4_S8388608x1_0_0 : S8388608x4.Slices ![0, 0] S8388608x1
  shapeCasts_S8388608x1_S8388608 : S8388608x1.ShapeCasts S8388608
  shapeCasts_S8388608_S65536x128 : S8388608.ShapeCasts S65536x128
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S65536x128_S8388608 : S65536x128.ShapeCasts S8388608
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S65536x128.size a
  hwx0_4 : ∀ i : grid0.Coords, EltTy.bits .f32 = 32 ∨ (Rect.block (s := S65536x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S65536x128.size a
  hwx0_5 : ∀ i : grid0.Coords, EltTy.bits .f32 = 32 ∨ (Rect.block (s := S65536x128) S4096x128.size (cc0_transform_5 i) (hinb0_5 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608x1, .f32⟩
  | .hbm, ⟨9, _⟩ => ⟨S8388608, .f32⟩
  | .hbm, ⟨10, _⟩ => ⟨S8388608, .f32⟩
  | .hbm, ⟨11, _⟩ => ⟨S8388608, .f32⟩
  | .hbm, ⟨12, _⟩ => ⟨S8388608, .f32⟩
  | .hbm, ⟨13, _⟩ => ⟨S8388608, .f32⟩
  | .hbm, ⟨14, _⟩ => ⟨S8388608, .f32⟩
  | .hbm, ⟨15, _⟩ => ⟨S8388608, .f32⟩
  | .hbm, ⟨16, _⟩ => ⟨S8388608, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S_, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S_, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]

class Facts₀ : Prop where
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)

variable [Facts₀]

class Facts : Prop extends Facts₀ where

variable [Facts]
-- ==== Proof.Spec.lean ====
/-
  The mathematics of the log-normal mixture loss, away from both programs.

  Per sample, with parameters a, c (the two means), b, d (the two log standard deviations) and the
  observation y, put s = exp b · exp b + exp d · exp d (the variance), L = log y, δ = L - (a + c) and
  q = δ·δ / (2·s).  One program computes the loss as

      lossSum  = ((C + ½ · log s) + L) + q,

  the other as the negated log density

      lossNeg  = -(((-C) - log (√s · y)) - q),

  where C is the single-precision value nearest to ½·log(2π) and -C its sign-flipped pattern.  On the
  extended reals the two agree whenever all five numbers are real and y > 0: then s > 0, every operation
  stays among the reals, and log (√s · y) = ½ · log s + log y.  (For y ≤ 0 the logarithm is -∞, the square
  +∞, and the two groupings of -∞ + ∞ part ways; this is why positivity of y is assumed.)
-/
import Idealize.ShloMosaic.PureOps.Ideal
import Idealize.ShloMosaic.Lib.ValueIdx

noncomputable section

namespace Cert.LogNormal

open Idealize.ShloMosaic Idealize.ShloMosaic.ValueIdx

/-! ## The four float literals as extended reals -/

/-- The pattern of 2.0 denotes the real 2. -/
theorem two_val : Ideal.ofBits .f32 0x40000000#32 = ((2 : ℝ) : EReal) := by
  simp [Ideal.ofBits, Ideal.ieee, -EReal.coe_mul]; norm_num

/-- The pattern of 0.5 denotes the real 1/2. -/
theorem half_val : Ideal.ofBits .f32 0x3F000000#32 = ((1 / 2 : ℝ) : EReal) := by
  simp [Ideal.ofBits, Ideal.ieee, -EReal.coe_mul]; norm_num

/-- The constant C (the float nearest ½·log 2π): a dyadic real. -/
def C : ℝ := 15417230 * (2 : ℝ) ^ (-24 : ℤ)

/-- Its pattern denotes C. -/
theorem c_val : Ideal.ofBits .f32 0x3F6B3F8E#32 = ((C : ℝ) : EReal) := by
  simp [Ideal.ofBits, Ideal.ieee, -EReal.coe_mul, C]

/-- The same pattern with the sign bit set denotes -C. -/
theorem neg_c_val : Ideal.ofBits .f32 0xBF6B3F8E#32 = ((-C : ℝ) : EReal) := by
  simp [Ideal.ofBits, Ideal.ieee, -EReal.coe_mul, C]

/-! ## The two scalar formulas -/

/-- The variance exp b · exp b + exp d · exp d. -/
def variance (b d : EReal) : EReal := Ideal.exp b * Ideal.exp b + Ideal.exp d * Ideal.exp d

/-- The quadratic term (log y - (a + c))² / (2 · s). -/
def quad (a c y s : EReal) : EReal :=
  Ideal.div ((Ideal.log y - (a + c)) * (Ideal.log y - (a + c))) (Ideal.ofBits .f32 0x40000000#32 * s)

/-- The loss as a sum: ((C + ½·log s) + log y) + q. -/
def lossSum (a b c d y : EReal) : EReal :=
  ((Ideal.ofBits .f32 0x3F6B3F8E#32 + Ideal.ofBits .f32 0x3F000000#32 * Ideal.log (variance b d)) + Ideal.log y)
    + quad a c y (variance b d)

/-- The loss as a negated log density: -(((-C) - log (√s · y)) - q). -/
def lossNeg (a b c d y : EReal) : EReal :=
  -((Ideal.ofBits .f32 0xBF6B3F8E#32 - Ideal.log (Ideal.sqrt (variance b d) * y)) - quad a c y (variance b d))

/-! ## They agree on real parameters and a positive observation -/

theorem lossNeg_eq_lossSum (a b c d y : ℝ) (hy : 0 < y) :
    lossNeg (a : EReal) (b : EReal) (c : EReal) (d : EReal) (y : EReal)
      = lossSum (a : EReal) (b : EReal) (c : EReal) (d : EReal) (y : EReal) := by
  have hs : 0 < Real.exp b * Real.exp b + Real.exp d * Real.exp d := by positivity
  have hsq : 0 < Real.sqrt (Real.exp b * Real.exp b + Real.exp d * Real.exp d) := Real.sqrt_pos.2 hs
  have e_s : variance (b : EReal) (d : EReal)
      = ((Real.exp b * Real.exp b + Real.exp d * Real.exp d : ℝ) : EReal) := by
    unfold variance; rw [Ideal.exp_coe, Ideal.exp_coe]; push_cast; rfl
  have e_logy : Ideal.log (y : EReal) = ((Real.log y : ℝ) : EReal) := by
    rw [Ideal.log_coe, if_neg (not_le.2 hy)]
  have e_logs : Ideal.log ((Real.exp b * Real.exp b + Real.exp d * Real.exp d : ℝ) : EReal)
      = ((Real.log (Real.exp b * Real.exp b + Real.exp d * Real.exp d) : ℝ) : EReal) := by
    rw [Ideal.log_coe, if_neg (not_le.2 hs)]
  have e_sqrt : Ideal.sqrt ((Real.exp b * Real.exp b + Real.exp d * Real.exp d : ℝ) : EReal)
      = ((Real.sqrt (Real.exp b * Real.exp b + Real.exp d * Real.exp d) : ℝ) : EReal) := by
    rw [Ideal.sqrt_coe, if_neg (not_lt.2 hs.le)]
  have e_logsy : Ideal.log ((Real.sqrt (Real.exp b * Real.exp b + Real.exp d * Real.exp d) * y : ℝ) : EReal)
      = ((Real.log (Real.sqrt (Real.exp b * Real.exp b + Real.exp d * Real.exp d) * y) : ℝ) : EReal) := by
    rw [Ideal.log_coe, if_neg (not_le.2 (mul_pos hsq hy))]
  have e_div : ∀ x : EReal,
      Ideal.div x ((2 * (Real.exp b * Real.exp b + Real.exp d * Real.exp d) : ℝ) : EReal)
        = x * ((1 / (2 * (Real.exp b * Real.exp b + Real.exp d * Real.exp d)) : ℝ) : EReal) :=
    Ideal.div_coe (by positivity)
  unfold lossNeg lossSum quad
  rw [e_s, e_logy, e_logs, e_sqrt, ← EReal.coe_mul, e_logsy, two_val, half_val, c_val, neg_c_val,
    ← EReal.coe_mul (2 : ℝ), e_div]
  rw [Real.log_mul hsq.ne' hy.ne', Real.log_sqrt hs.le]
  norm_cast
  ring

/-! ## The whole array -/

/-- Sample n of the result is a scalar formula L of row n of the parameter array (columns 0..3: first mean, first log
    deviation, second mean, second log deviation) and of entry n of the observation column. -/
def lossArray (L : EReal → EReal → EReal → EReal → EReal → EReal)
    (P : FVec Ideal ⟨2, ![8388608, 4]⟩ .f32) (Y : FVec Ideal ⟨2, ![8388608, 1]⟩ .f32) :
    FVec Ideal ⟨1, ![8388608]⟩ .f32 :=
  fun i => L (P (ix2 (i 0 : Fin 8388608) (0 : Fin 4))) (P (ix2 (i 0 : Fin 8388608) (1 : Fin 4)))
    (P (ix2 (i 0 : Fin 8388608) (2 : Fin 4))) (P (ix2 (i 0 : Fin 8388608) (3 : Fin 4)))
    (Y (ix2 (i 0 : Fin 8388608) (0 : Fin 1)))

end Cert.LogNormal

end
-- ==== Proof.Domain.lean ====
/-
  The precondition, read back: every entry of the parameter array and of the observation column is a real number
  (its absolute value is below +∞), and every observation is positive.  On such arrays the negated-log-density form
  and the sum form of the loss are the same array.
-/
import proofs.«123175_j43173011259409_2_alg».proof.Proof.Gen.Pre_finite_inputs
import proofs.«123175_j43173011259409_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.LogNormal.Domain

open Idealize.ShloMosaic Idealize.ShloMosaic.ValueIdx Cert.Pre_finite_inputs Cert.LogNormal

instance : Subsingleton S_.Idx := ⟨fun a b => funext fun d => d.elim0⟩

theorem ofBool_eq_one (b : Bool) : BitVec.ofBool b = 1#1 ↔ b = true := by cases b <;> decide

/-- The pattern of +∞ denotes the top element. -/
theorem inf_val : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

variable [Facts]

/-- Under the precondition every parameter is real, and every observation is real and positive. -/
theorem decode (P : FVec Ideal S8388608x4 .f32) (Y : FVec Ideal S8388608x1 .f32)
    (h : fn (F := Ideal) P Y = fun _ => 1#1) :
    (∀ i, ∃ r : ℝ, P i = (r : EReal)) ∧ (∀ i, ∃ r : ℝ, Y i = (r : EReal) ∧ 0 < r) := by
  have e := congrFun h ix0
  unfold fn at e
  dsimp only [Idealize.ShloMosaic.andi] at e
  rw [IntOp.andi_eq_one, IntOp.andi_eq_one] at e
  obtain ⟨⟨e1, e2⟩, e3⟩ := e
  have f1 := Host.reduce_andi_all _ _ _ _ _ e1
  have f2 := Host.reduce_andi_all _ _ _ _ _ e2
  have f3 := Host.reduce_andi_all _ _ _ _ _ e3
  have g1 : ∀ i, max (P i) (-(P i)) < ⊤ := fun i => by
    have := f1 i
    rw [cmpf_apply, broadcastInDim_apply _ Facts.bcast_S_S8388608x4 _ i ix0 (fun a => a.elim0)] at this
    have t : BitVec.ofBool (decide (max (P i) (-(P i)) < Ideal.ofBits .f32 0x7F800000#32)) = 1#1 := this
    rw [inf_val, ofBool_eq_one] at t
    exact of_decide_eq_true t
  have g2 : ∀ i, max (Y i) (-(Y i)) < ⊤ := fun i => by
    have := f2 i
    rw [cmpf_apply, broadcastInDim_apply _ Facts.bcast_S_S8388608x1 _ i ix0 (fun a => a.elim0)] at this
    have t : BitVec.ofBool (decide (max (Y i) (-(Y i)) < Ideal.ofBits .f32 0x7F800000#32)) = 1#1 := this
    rw [inf_val, ofBool_eq_one] at t
    exact of_decide_eq_true t
  have g3 : ∀ i, (0 : EReal) < Y i := fun i => by
    have := f3 i
    rw [cmpf_apply, broadcastInDim_apply _ Facts.bcast_S_S8388608x1 _ i ix0 (fun a => a.elim0)] at this
    have t : BitVec.ofBool (decide (Ideal.ofBits .f32 0x00000000#32 < Y i)) = 1#1 := this
    rw [Ideal.ofBits_zero_f32, ofBool_eq_one] at t
    exact of_decide_eq_true t
  refine ⟨fun i => real_of_abs_lt_top _ (g1 i), fun i => ?_⟩
  obtain ⟨r, hr⟩ := real_of_abs_lt_top _ (g2 i)
  refine ⟨r, hr, ?_⟩
  have := g3 i
  rw [hr] at this
  exact_mod_cast this

omit [Facts] in
/-- On real parameters and real positive observations the two forms of the loss agree, sample by sample. -/
theorem lossArray_eq (P : FVec Ideal S8388608x4 .f32) (Y : FVec Ideal S8388608x1 .f32)
    (hP : ∀ i, ∃ r : ℝ, P i = (r : EReal)) (hY : ∀ i, ∃ r : ℝ, Y i = (r : EReal) ∧ 0 < r) :
    lossArray lossNeg P Y = lossArray lossSum P Y := by
  funext i
  unfold lossArray
  obtain ⟨a, ha⟩ := hP (ix2 (i 0 : Fin 8388608) (0 : Fin 4))
  obtain ⟨b, hb⟩ := hP (ix2 (i 0 : Fin 8388608) (1 : Fin 4))
  obtain ⟨c, hc⟩ := hP (ix2 (i 0 : Fin 8388608) (2 : Fin 4))
  obtain ⟨d, hd⟩ := hP (ix2 (i 0 : Fin 8388608) (3 : Fin 4))
  obtain ⟨y, hy, hy0⟩ := hY (ix2 (i 0 : Fin 8388608) (0 : Fin 1))
  rw [ha, hb, hc, hd, hy]
  exact lossNeg_eq_lossSum a b c d y hy0

end Cert.LogNormal.Domain

end
-- ==== Proof.RefValue.lean ====
/-
  The reference program's result, read one sample at a time.

  Its operations are all elementwise on vectors of 8388608 samples, after four column slices of the parameter
  array and a flattening of the observation column; so sample n of the result is the negated-log-density
  formula of row n of the parameters and entry n of the observations.
-/
import proofs.«123175_j43173011259409_2_alg».proof.Proof.Gen.ReferenceIdeal.Read
import proofs.«123175_j43173011259409_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx Cert.LogNormal

/-- Column k of the parameters, flattened, read at sample i is the entry (i, k): the four slices and the observation column. -/
theorem idx_col0 (i : S8388608.Idx) : idx_main_v0 (idx_main_v1 i) = ix2 (i 0 : Fin 8388608) (0 : Fin 4) := by
  funext a; apply Fin.ext
  match a with
  | ⟨0, _⟩ => exact Nat.div_one _
  | ⟨1, _⟩ => rfl
theorem idx_col1 (i : S8388608.Idx) : idx_main_v2 (idx_main_v3 i) = ix2 (i 0 : Fin 8388608) (1 : Fin 4) := by
  funext a; apply Fin.ext
  match a with
  | ⟨0, _⟩ => exact Nat.div_one _
  | ⟨1, _⟩ => rfl
theorem idx_col2 (i : S8388608.Idx) : idx_main_v4 (idx_main_v5 i) = ix2 (i 0 : Fin 8388608) (2 : Fin 4) := by
  funext a; apply Fin.ext
  match a with
  | ⟨0, _⟩ => exact Nat.div_one _
  | ⟨1, _⟩ => rfl
theorem idx_col3 (i : S8388608.Idx) : idx_main_v6 (idx_main_v7 i) = ix2 (i 0 : Fin 8388608) (3 : Fin 4) := by
  funext a; apply Fin.ext
  match a with
  | ⟨0, _⟩ => exact Nat.div_one _
  | ⟨1, _⟩ => rfl
theorem idx_obs (i : S8388608.Idx) : idx_main_v8 i = ix2 (i 0 : Fin 8388608) (0 : Fin 1) := by
  funext a; apply Fin.ext
  match a with
  | ⟨0, _⟩ => exact Nat.div_one _
  | ⟨1, _⟩ => rfl

/-- The reference's result is the negated-log-density formula, sample by sample. -/
theorem ref_eq (x0 : FVec Ideal S8388608x4 .f32) (x1 : FVec Ideal S8388608x1 .f32) :
    val_main_v27 (F := Ideal) x0 x1 = lossArray lossNeg x0 x1 := by
  funext i
  simp only [val_main_v27_apply, val_main_v26_apply, val_main_v25_apply, val_main_v24_apply, val_main_v23_apply,
    val_main_cst_0_apply, val_main_v22_apply, val_main_v21_apply, val_main_v20_apply, val_main_v19_apply,
    val_main_v18_apply, val_main_cst_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply,
    val_main_v4_apply, val_main_v3_apply, val_main_v2_apply, val_main_v1_apply, val_main_v0_apply]
  simp only [idx_col0, idx_col1, idx_col2, idx_col3, idx_obs, Ideal.hostNegf_def, Ideal.negf_def, Ideal.subf_def,
    Ideal.addf_def, Ideal.mulf_def, Ideal.hostDivf_def, Ideal.hostUnary_exp_def, Ideal.hostUnary_log_def,
    Ideal.hostUnary_sqrt_def, Ideal.ofBits_def]
  rfl

end Cert.ReferenceIdeal.RefValue

end
-- ==== Proof.Body.lean ====
/-
  What the kernel body stores, one entry at a time.

  The body loads five blocks (first mean, first log deviation, second mean, second log deviation, observation),
  and every operation on them is elementwise, so entry j of the stored block is the sum-form loss of the five
  loaded entries at j.
-/
import proofs.«123175_j43173011259409_2_alg».proof.Proof.Gen.KernelIdeal.Skeleton
import proofs.«123175_j43173011259409_2_alg».proof.Proof.Spec
import Idealize.ShloMosaic.Lib.Pipeline.Value

noncomputable section

namespace Cert.KernelIdeal.Body

open Cert.KernelIdeal Cert.KernelIdeal.Gen Idealize.ShloMosaic Cert.LogNormal

/-- Entry j of the body's stored value is the sum-form loss of the loaded blocks' entries at j. -/
theorem payload_at (v0 v2 v4 v6 v8 : Vec Ideal S4096x128 .f32) (j : S4096x128.Idx) :
    k0_pay1 (F := Ideal) v0 v2 v4 v6 v8 j = lossSum (v0 j) (v2 j) (v4 j) (v6 j) (v8 j) := by
  unfold k0_pay1
  simp only [shapeCast_self]
  rfl

end Cert.KernelIdeal.Body

end
-- ==== Proof.KernelValue.lean ====
/-
  The kernel's result array as one function of the two argument arrays.

  Before the launch the host cuts the parameter array into its four columns and lays each, and the observation
  column, out as 65536 rows of 128 lanes: entry (r, l) of a laid-out column is sample 128·r + l.  The launch
  walks 16 blocks of 4096 rows; at block t every window (five inputs, one output) sits on rows 4096·t … 4096·t + 4095,
  and the body is elementwise, so the output array ends holding, at (r, l), the sum-form loss of sample 128·r + l.
  After the launch the host flattens the 65536 × 128 array back to 8388608 samples, row-major, so sample n of the
  final result is the sum-form loss of row n of the parameters and entry n of the observations.
-/
import proofs.«123175_j43173011259409_2_alg».proof.Proof.Gen.KernelIdeal.Frame
import proofs.«123175_j43173011259409_2_alg».proof.Proof.Body
import proofs.«123175_j43173011259409_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.ValueIdx Cert.LogNormal Cert.KernelIdeal.Body
open Idealize.ShloMosaic.Pipeline (Dat)

variable (m : (ℓ : Loc nD τ sig) → Buf (Elt Ideal) ℓ) (ρ : Dev nD → PrngReg)

/-! ## The laid-out columns -/

/-- The sample that sits at row r, lane l of a laid-out column. -/
def flat (j : S65536x128.Idx) : Fin 8388608 :=
  ⟨(j 0).val * 128 + (j 1).val, by have h0 := idx2_lt0 j; have h1 := idx2_lt1 j; omega⟩

/-- The lane-dense result: at (r, l) the sum-form loss of sample 128·r + l. -/
def tile (P : FVec Ideal S8388608x4 .f32) (Y : FVec Ideal S8388608x1 .f32) : FVec Ideal S65536x128 .f32 := fun j =>
  lossSum (P (ix2 (flat j) (0 : Fin 4))) (P (ix2 (flat j) (1 : Fin 4))) (P (ix2 (flat j) (2 : Fin 4)))
    (P (ix2 (flat j) (3 : Fin 4))) (Y (ix2 (flat j) (0 : Fin 1)))

/-- Column k of the parameters, flattened and laid out, read at (r, l), is the entry (128·r + l, k). -/
theorem col_at (k : Nat) (hk : k < 4) (h : S8388608x4.Slices ![0, k] S8388608x1) (P : FVec Ideal S8388608x4 .f32)
    (r : Fin 65536) (l : Fin 128) (n : Fin 8388608) (hn : n.val = r.val * 128 + l.val) :
    shapeCast S65536x128 (shapeCast S8388608 (extractStridedSlice S8388608x1 ![0, k] P h) shapeCasts_S8388608x1_S8388608)
        shapeCasts_S8388608_S65536x128 (ix2 r l)
      = P (ix2 n (⟨k, hk⟩ : Fin 4)) := by
  rw [shapeCast_apply _ shapeCasts_S8388608_S65536x128 (ix2 r l) (ix1 n)
        (by rewrite [Shape.rowMajor_val_one, Shape.rowMajor_val_two]; show n.val = r.val * 128 + l.val; exact hn),
      shapeCast_apply _ shapeCasts_S8388608x1_S8388608 (ix1 n) (ix2 n (0 : Fin 1))
        (by rewrite [Shape.rowMajor_val_two, Shape.rowMajor_val_one]; show n.val * 1 + 0 = n.val; omega),
      extractStridedSlice_apply ![0, k] P h (ix2 n (0 : Fin 1)) (ix2 n (⟨k, hk⟩ : Fin 4)) (fun a => match a with
        | ⟨0, _⟩ => by show n.val = 0 + n.val; omega
        | ⟨1, _⟩ => by show k = k + 0; omega)]

/-- The observation column, flattened and laid out, read at (r, l), is the entry (128·r + l, 0). -/
theorem obs_at (Y : FVec Ideal S8388608x1 .f32) (r : Fin 65536) (l : Fin 128) (n : Fin 8388608)
    (hn : n.val = r.val * 128 + l.val) :
    shapeCast S65536x128 (shapeCast S8388608 Y shapeCasts_S8388608x1_S8388608) shapeCasts_S8388608_S65536x128 (ix2 r l)
      = Y (ix2 n (0 : Fin 1)) := by
  rw [shapeCast_apply _ shapeCasts_S8388608_S65536x128 (ix2 r l) (ix1 n)
        (by rewrite [Shape.rowMajor_val_one, Shape.rowMajor_val_two]; show n.val = r.val * 128 + l.val; exact hn),
      shapeCast_apply _ shapeCasts_S8388608x1_S8388608 (ix1 n) (ix2 n (0 : Fin 1))
        (by rewrite [Shape.rowMajor_val_two, Shape.rowMajor_val_one]; show n.val * 1 + 0 = n.val; omega)]

/-! ## What the launch finds in its five input arrays -/

theorem V_mu1 (c : Dev nD) : (V m c main_v2 : S65536x128.Idx → EReal) =
    shapeCast S65536x128 (shapeCast S8388608 (extractStridedSlice S8388608x1 ![0, 0] (m ((c : Thread nD τ).loc main_arg0))
      slices_S8388608x4_S8388608x1_0_0) shapeCasts_S8388608x1_S8388608) shapeCasts_S8388608_S65536x128 := by
  show StableHlo.after hostOps0 (fun b => m (c, b)) (Proc.devRef .tc main_v2) = _
  after_results
  rfl
theorem V_ls1 (c : Dev nD) : (V m c main_v5 : S65536x128.Idx → EReal) =
    shapeCast S65536x128 (shapeCast S8388608 (extractStridedSlice S8388608x1 ![0, 1] (m ((c : Thread nD τ).loc main_arg0))
      slices_S8388608x4_S8388608x1_0_1) shapeCasts_S8388608x1_S8388608) shapeCasts_S8388608_S65536x128 := by
  show StableHlo.after hostOps0 (fun b => m (c, b)) (Proc.devRef .tc main_v5) = _
  after_results
  rfl
theorem V_mu2 (c : Dev nD) : (V m c main_v8 : S65536x128.Idx → EReal) =
    shapeCast S65536x128 (shapeCast S8388608 (extractStridedSlice S8388608x1 ![0, 2] (m ((c : Thread nD τ).loc main_arg0))
      slices_S8388608x4_S8388608x1_0_2) shapeCasts_S8388608x1_S8388608) shapeCasts_S8388608_S65536x128 := by
  show StableHlo.after hostOps0 (fun b => m (c, b)) (Proc.devRef .tc main_v8) = _
  after_results
  rfl
theorem V_ls2 (c : Dev nD) : (V m c main_v11 : S65536x128.Idx → EReal) =
    shapeCast S65536x128 (shapeCast S8388608 (extractStridedSlice S8388608x1 ![0, 3] (m ((c : Thread nD τ).loc main_arg0))
      slices_S8388608x4_S8388608x1_0_3) shapeCasts_S8388608x1_S8388608) shapeCasts_S8388608_S65536x128 := by
  show StableHlo.after hostOps0 (fun b => m (c, b)) (Proc.devRef .tc main_v11) = _
  after_results
  rfl
theorem V_obs (c : Dev nD) : (V m c main_v13 : S65536x128.Idx → EReal) =
    shapeCast S65536x128 (shapeCast S8388608 (m ((c : Thread nD τ).loc main_arg1)) shapeCasts_S8388608x1_S8388608)
      shapeCasts_S8388608_S65536x128 := by
  show StableHlo.after hostOps0 (fun b => m (c, b)) (Proc.devRef .tc main_v13) = _
  after_results
  rfl

/-- The sum-form loss of the five laid-out arrays at one position is the lane-dense result there. -/
theorem tile_of_cols (c : Dev nD) (i : S65536x128.Idx) :
    lossSum ((V m c main_v2 : S65536x128.Idx → EReal) i) ((V m c main_v5 : S65536x128.Idx → EReal) i)
        ((V m c main_v8 : S65536x128.Idx → EReal) i) ((V m c main_v11 : S65536x128.Idx → EReal) i)
        ((V m c main_v13 : S65536x128.Idx → EReal) i)
      = tile (m ((c : Thread nD τ).loc main_arg0)) (m ((c : Thread nD τ).loc main_arg1)) i := by
  obtain ⟨r, l, rfl⟩ : ∃ (r : Fin 65536) (l : Fin 128), i = ix2 r l := ⟨i 0, i 1, eq_ix2 i⟩
  rw [V_mu1, V_ls1, V_mu2, V_ls2, V_obs,
    col_at 0 (by omega) _ _ r l (flat (ix2 r l)) rfl, col_at 1 (by omega) _ _ r l (flat (ix2 r l)) rfl,
    col_at 2 (by omega) _ _ r l (flat (ix2 r l)) rfl, col_at 3 (by omega) _ _ r l (flat (ix2 r l)) rfl,
    obs_at _ r l (flat (ix2 r l)) rfl]
  rfl

/-! ## From the blocks to the array -/

theorem hz : (![0, 0] : Fin 2 → Nat) = fun _ => 0 := funext fun a => by fin_cases a <;> rfl

/-- At every grid point the five input windows sit on the output window's block, and that block is one of the 16
    row blocks, in lane block 0. -/
theorem idx_facts : ∀ t : Fin cfg0.N, win0_0.index t (0 : Fin 2) = win0_5.index t (0 : Fin 2) + 0
    ∧ win0_0.index t (1 : Fin 2) = win0_5.index t (1 : Fin 2) + 0
    ∧ win0_1.index t (0 : Fin 2) = win0_5.index t (0 : Fin 2) + 0
    ∧ win0_1.index t (1 : Fin 2) = win0_5.index t (1 : Fin 2) + 0
    ∧ win0_2.index t (0 : Fin 2) = win0_5.index t (0 : Fin 2) + 0
    ∧ win0_2.index t (1 : Fin 2) = win0_5.index t (1 : Fin 2) + 0
    ∧ win0_3.index t (0 : Fin 2) = win0_5.index t (0 : Fin 2) + 0
    ∧ win0_3.index t (1 : Fin 2) = win0_5.index t (1 : Fin 2) + 0
    ∧ win0_4.index t (0 : Fin 2) = win0_5.index t (0 : Fin 2) + 0
    ∧ win0_4.index t (1 : Fin 2) = win0_5.index t (1 : Fin 2) + 0 :=
  (by decide +kernel : ∀ t : Fin grid0.N, _)

/-- Every one of the 16 row blocks is some grid point's. -/
theorem idx_onto : ∀ (q0 : Fin 16), ∃ t : Fin cfg0.N, win0_5.index t = ![q0.val, 0] :=
  (by decide +kernel : ∀ (q0 : Fin 16), ∃ t : Fin grid0.N, win0_5.index t = ![q0.val, 0])

/-- What grid point t writes back is block t of the lane-dense result. -/
theorem flushed_eq (c : Dev nD) (t : Fin cfg0.N) :
    (dats m 0 c).flushed 5 t = ((cfg0.win 5).blk t).view.read (Elt Ideal)
      (tile (m ((c : Thread nD τ).loc main_arg0)) (m ((c : Thread nD τ).loc main_arg1))) := by
  show (cfg0.win 5).cut (grid0.coords t) ((dats m 0 c).after 5 t) = _
  rw [after0_5]
  unfold out0_5
  rw [View.canon_unit_zero hz]
  simp only [View.ld_unit_zero (S := S4096x128) hz]
  obtain ⟨e0, e1, e2, e3, e4, e5, e6, e7, e8, e9⟩ := idx_facts t
  funext j
  show k0_pay1 (F := Ideal) (iblk m c 0 t) (iblk m c 1 t) (iblk m c 2 t) (iblk m c 3 t) (iblk m c 4 t) j
    = tile (m ((c : Thread nD τ).loc main_arg0)) (m ((c : Thread nD τ).loc main_arg1)) (((cfg0.win 5).blk t).view.emb j)
  refine (payload_at (iblk m c 0 t) (iblk m c 1 t) (iblk m c 2 t) (iblk m c 3 t) (iblk m c 4 t) j).trans ?_
  show lossSum (V m c main_v2 (((cfg0.win 0).blk t).view.emb j)) (V m c main_v5 (((cfg0.win 1).blk t).view.emb j))
      (V m c main_v8 (((cfg0.win 2).blk t).view.emb j)) (V m c main_v11 (((cfg0.win 3).blk t).view.emb j))
      (V m c main_v13 (((cfg0.win 4).blk t).view.emb j))
    = tile (m ((c : Thread nD τ).loc main_arg0)) (m ((c : Thread nD τ).loc main_arg1)) (((cfg0.win 5).blk t).view.emb j)
  have h0 : ((cfg0.win 0).blk t).view.emb j = ((cfg0.win 5).blk t).view.emb j := by
    funext a; apply Fin.ext
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 4096 + 1 * (j 0).val = win0_5.index t (0 : Fin 2) * 4096 + 1 * (j 0).val; omega
    | ⟨1, _⟩ => show win0_2.index t (1 : Fin 2) * 128 + 1 * (j 1).val = win0_5.index t (1 : Fin 2) * 128 + 1 * (j 1).val; omega
  have h3 : ((cfg0.win 3).blk t).view.emb j = ((cfg0.win 5).blk t).view.emb j := by
    funext a; apply Fin.ext
    match a with
    | ⟨0, _⟩ => show win0_3.index t (0 : Fin 2) * 4096 + 1 * (j 0).val = win0_5.index t (0 : Fin 2) * 4096 + 1 * (j 0).val; omega
    | ⟨1, _⟩ => show win0_3.index t (1 : Fin 2) * 128 + 1 * (j 1).val = win0_5.index t (1 : Fin 2) * 128 + 1 * (j 1).val; omega
  have h4 : ((cfg0.win 4).blk t).view.emb j = ((cfg0.win 5).blk t).view.emb j := by
    funext a; apply Fin.ext
    match a with
    | ⟨0, _⟩ => show win0_4.index t (0 : Fin 2) * 4096 + 1 * (j 0).val = win0_5.index t (0 : Fin 2) * 4096 + 1 * (j 0).val; omega
    | ⟨1, _⟩ => show win0_4.index t (1 : Fin 2) * 128 + 1 * (j 1).val = win0_5.index t (1 : Fin 2) * 128 + 1 * (j 1).val; omega
  rw [h0, h1, h2, h3, h4]
  exact tile_of_cols m c _

/-- A position of the array is in grid point t's block iff each coordinate is in the block's range on its axis. -/
theorem mem_blk (t : Fin cfg0.N) (i : S65536x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v14).slice (win0_5.rect t)).set ↔ _
  rw [View.set_slice_whole, Rect.mem_set_unit]
  exact Iff.rfl

/-- Every position is in some grid point's block: row r is in row block r / 4096. -/
theorem cover (i : S65536x128.Idx) :
    ∃ t : Fin cfg0.N, (cfg0.win 5).flush t = true ∧ i ∈ ((cfg0.win 5).blk t).view.set := by
  have hi0 : (i 0).val < 65536 := idx2_lt0 i
  have hi1 : (i 1).val < 128 := idx2_lt1 i
  obtain ⟨t, ht⟩ := idx_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The output array after the launch is the lane-dense result. -/
theorem final (c : Dev nD) : (dats m 0 c).arrAt 5 cfg0.N
    = tile (m ((c : Thread nD τ).loc main_arg0)) (m ((c : Thread nD τ).loc main_arg1)) :=
  (dats m 0 c).arrAt_eq_of_cover 5 _ (fun t _ => flushed_eq m c t) cover

/-! ## The flattening after the launch -/

/-- The lane-dense result flattened row-major is the per-sample result. -/
theorem flatten_tile (P : FVec Ideal S8388608x4 .f32) (Y : FVec Ideal S8388608x1 .f32) :
    shapeCast S8388608 (tile P Y) shapeCasts_S65536x128_S8388608 = lossArray lossSum P Y := by
  funext i
  have hi : (i 0).val < 8388608 := (i 0).isLt
  rw [shapeCast_apply (tile P Y) shapeCasts_S65536x128_S8388608 i
    (ix2 (⟨(i 0).val / 128, by omega⟩ : Fin 65536) (⟨(i 0).val % 128, Nat.mod_lt _ (by norm_num)⟩ : Fin 128))
    (by rewrite [Shape.rowMajor_val_two, Shape.rowMajor_val_one]
        show (i 0).val / 128 * 128 + (i 0).val % 128 = (i 0).val; omega)]
  have hf : flat (ix2 (⟨(i 0).val / 128, by omega⟩ : Fin 65536) (⟨(i 0).val % 128, Nat.mod_lt _ (by norm_num)⟩ : Fin 128))
      = (i 0 : Fin 8388608) :=
    Fin.ext (by show (i 0).val / 128 * 128 + (i 0).val % 128 = (i 0).val; omega)
  unfold tile lossArray
  rw [hf]

/-- The host line after the launch leaves the result buffer at the output array flattened. -/
theorem tail_eq (c : Dev nD) :
    Pipeline.afterTail₀ cfgs (dats m) 0 (V0 m) [hostOps1] c main_v15
      = shapeCast S8388608 ((dats m 0 c).arrAt 5 cfg0.N) shapeCasts_S65536x128_S8388608 := by
  unfold Pipeline.afterTail₀
  show StableHlo.after hostOps1 _ (Proc.devRef .tc main_v15) = _
  after_results
  rw [Pipeline.withArrays_arr spec0 launch0.win.arr_inj c _ _ 5]
  rfl

/-! ## The run, read -/

/-- Every weakly fair execution of the kernel program ends with the result buffer at the per-sample sum-form loss of
    the arguments, and the arguments unchanged. -/
theorem run : θ_run defs (onTc (τ := τ) (main (F := Ideal))) ⟨m, fun _ => 0, ρ⟩ fun r => ∀ c : Dev nD,
      r.2.mem ((c : Thread nD τ).loc main_v15)
        = lossArray lossSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v15 (Pipeline.mem_restRefs_of main_v15 (by decide) (by decide))).trans
        ((tail_eq m c).trans (by rw [final m c, flatten_tile])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ArrayValue

end
-- ==== Proof.lean ====
/-
  A per-sample log-normal mixture loss, computed two ways.

  From a parameter array P of 8388608 rows (first mean, first log deviation, second mean, second log deviation) and a
  column Y of observations, with s = exp b · exp b + exp d · exp d, L = log y and q = (L - (a + c))² / (2·s) for a row
  (a, b, c, d) and its observation y:

    * the kernel lays the four parameter columns and the observations out as 65536 × 128 arrays, computes
      ((C + ½·log s) + L) + q elementwise over 16 row blocks, and flattens the result back;
    * the reference computes -(((-C) - log(√s · y)) - q) on the flat columns.

  Here C is the single-precision constant nearest ½·log 2π and -C the same pattern with the sign bit set.  Sample n
  of either result depends on row n and observation n alone, and the two formulas agree as soon as those five
  numbers are real and the observation is positive (log(√s·y) = ½·log s + log y).  The precondition says exactly
  that: every input finite and every observation positive.  Without positivity the logarithm is -∞, the quadratic
  term +∞, and the two programs group -∞ + ∞ differently.

  Modules: Spec (the two scalar formulas and their agreement), Domain (the precondition read back), RefValue (the
  reference's result sample by sample), Body (the kernel body's stored value entry by entry), KernelValue (the
  kernel's result array from its blocks, and the flattening after the launch).
-/
import proofs.«123175_j43173011259409_2_alg».proof.Defs
import proofs.«123175_j43173011259409_2_alg».proof.Proof.Gen.Kernel
import proofs.«123175_j43173011259409_2_alg».proof.Proof.Gen.Kernel.Skeleton
import proofs.«123175_j43173011259409_2_alg».proof.Proof.Gen.Kernel.Launch
import proofs.«123175_j43173011259409_2_alg».proof.Proof.Gen.Kernel.Points
import proofs.«123175_j43173011259409_2_alg».proof.Proof.Gen.Kernel.Frame
import proofs.«123175_j43173011259409_2_alg».proof.Proof.Gen.KernelIdeal
import proofs.«123175_j43173011259409_2_alg».proof.Proof.Gen.KernelIdeal.Skeleton
import proofs.«123175_j43173011259409_2_alg».proof.Proof.Gen.KernelIdeal.Launch
import proofs.«123175_j43173011259409_2_alg».proof.Proof.Gen.KernelIdeal.Points
import proofs.«123175_j43173011259409_2_alg».proof.Proof.Gen.KernelIdeal.Frame
import proofs.«123175_j43173011259409_2_alg».proof.Proof.Gen.ReferenceIdeal
import proofs.«123175_j43173011259409_2_alg».proof.Proof.Gen.ReferenceIdeal.Run
import proofs.«123175_j43173011259409_2_alg».proof.Proof.Gen.ReferenceIdeal.Read
import proofs.«123175_j43173011259409_2_alg».proof.Proof.Gen.Pre_finite_inputs
import proofs.«123175_j43173011259409_2_alg».proof.Proof.Spec
import proofs.«123175_j43173011259409_2_alg».proof.Proof.Domain
import proofs.«123175_j43173011259409_2_alg».proof.Proof.RefValue
import proofs.«123175_j43173011259409_2_alg».proof.Proof.KernelValue
import Idealize.ShloMosaic.Adequacy
import Idealize.ShloMosaic.Init

noncomputable section

namespace Cert.Proof

open Idealize.ShloMosaic Idealize.SL.Sem Cert.LogNormal

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with sample n of the result at the loss of row n and observation n: the kernel in the sum
    form, the reference in the negated-log-density form, and under the precondition these are one array. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hY⟩ := Cert.LogNormal.Domain.decode _ _ (hpre c)
  rw [Cert.ReferenceIdeal.Read.val_main_v27_eq, Cert.ReferenceIdeal.RefValue.ref_eq, (hagree c).1, (hagree c).2]
  exact Cert.LogNormal.Domain.lossArray_eq _ _ hP hY

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
